-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1638400 : Shape := ⟨1, ![1638400]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1638400 : S_.BroadcastsInDim S1638400 (![] : Fin 0 → Fin S1638400.rank)
  reducesTo_S1638400_S_d0 : S1638400.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S1638400 .f32) (main_arg2 : FVec F S4096 .f32) (main_arg3 : IVec S1638400 32) (main_arg4 : IVec S1638400 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1638400 .f32 := Host.absf main_arg1
  let main_cst_0 : FVec F S_ .f32 := constant S_ .f32 0x7F800000#32
  let main_v5 : FVec F S1638400 .f32 := broadcastInDim S1638400 ![] bcast_S_S1638400 main_cst_0
  let main_v6 : IVec S1638400 1 := cmpf .olt main_v4 main_v5
  let main_c_1 : IVec S_ 1 := constantI S_ 1 1#1
  let main_v7 : IVec S_ 1 := (fun x v => Host.reduce IntOp.andi x v reducesTo_S1638400_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S1638400 : Shape := ⟨1, ![1638400]⟩
abbrev S4096 : Shape := ⟨1, ![4096]⟩
abbrev S_ : Shape := ⟨0, ![]⟩
abbrev S4096x4096 : Shape := ⟨2, ![4096, 4096]⟩
abbrev S1638400x1 : Shape := ⟨2, ![1638400, 1]⟩
abbrev S1638400x2 : Shape := ⟨2, ![1638400, 2]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 27
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1638400, .f32⟩
  | .hbm, ⟨2, _⟩ => ⟨S4096, .f32⟩
  | .hbm, ⟨3, _⟩ => ⟨S1638400, .i32⟩
  | .hbm, ⟨4, _⟩ => ⟨S1638400, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1638400, .i32⟩
  | .hbm, ⟨9, _⟩ => ⟨S1638400, .i1⟩
  | .hbm, ⟨10, _⟩ => ⟨S_, .i32⟩
  | .hbm, ⟨11, _⟩ => ⟨S1638400, .i32⟩
  | .hbm, ⟨12, _⟩ => ⟨S1638400, .i32⟩
  | .hbm, ⟨13, _⟩ => ⟨S1638400, .i32⟩
  | .hbm, ⟨14, _⟩ => ⟨S_, .i32⟩
  | .hbm, ⟨15, _⟩ => ⟨S1638400, .i32⟩
  | .hbm, ⟨16, _⟩ => ⟨S1638400, .i1⟩
  | .hbm, ⟨17, _⟩ => ⟨S_, .i32⟩
  | .hbm, ⟨18, _⟩ => ⟨S1638400, .i32⟩
  | .hbm, ⟨19, _⟩ => ⟨S1638400, .i32⟩
  | .hbm, ⟨20, _⟩ => ⟨S1638400, .i32⟩
  | .hbm, ⟨21, _⟩ => ⟨S1638400x1, .i32⟩
  | .hbm, ⟨22, _⟩ => ⟨S1638400x1, .i32⟩
  | .hbm, ⟨23, _⟩ => ⟨S1638400x2, .i32⟩
  | .hbm, ⟨24, _⟩ => ⟨S4096x4096, .f32⟩
  | .hbm, ⟨25, _⟩ => ⟨S1x4096, .f32⟩
  | .hbm, ⟨26, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S_S1638400 : S_.BroadcastsInDim S1638400 (![] : Fin 0 → Fin S1638400.rank)
  bcast_S1638400_S1638400x1_0 : S1638400.BroadcastsInDim S1638400x1 (![0] : Fin 1 → Fin S1638400x1.rank)
  concatenates_S1638400x1_S1638400x1_S1638400x2_d1 : Shape.Concatenates [S1638400x1, S1638400x1] S1638400x2 1
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S4096x4096_S1638400x2_S1638400_n_01_01_1_wf : ScatterDims.WF S4096x4096 S1638400x2 S1638400 [] [0, 1] [0, 1] 1
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S4096x4096_S1638400x2_S1638400_n_01_01_1 : ScatterDims S4096x4096 S1638400x2 S1638400 where
  updateWindowDims := []
  insertedWindowDims := [0, 1]
  scatterDimsToOperandDims := [0, 1]
  indexVectorDim := 1
  wf := scatter_S4096x4096_S1638400x2_S1638400_n_01_01_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S1638400 : Shape := ⟨1, ![1638400]⟩
abbrev S4096 : Shape := ⟨1, ![4096]⟩
abbrev S_ : Shape := ⟨0, ![]⟩
abbrev S4096x4096 : Shape := ⟨2, ![4096, 4096]⟩
abbrev S1638400x1 : Shape := ⟨2, ![1638400, 1]⟩
abbrev S1638400x2 : Shape := ⟨2, ![1638400, 2]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1638400, .f32⟩
  | .hbm, ⟨2, _⟩ => ⟨S4096, .f32⟩
  | .hbm, ⟨3, _⟩ => ⟨S1638400, .i32⟩
  | .hbm, ⟨4, _⟩ => ⟨S1638400, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1638400, .i32⟩
  | .hbm, ⟨9, _⟩ => ⟨S1638400, .i1⟩
  | .hbm, ⟨10, _⟩ => ⟨S_, .i32⟩
  | .hbm, ⟨11, _⟩ => ⟨S1638400, .i32⟩
  | .hbm, ⟨12, _⟩ => ⟨S1638400, .i32⟩
  | .hbm, ⟨13, _⟩ => ⟨S1638400, .i32⟩
  | .hbm, ⟨14, _⟩ => ⟨S_, .i32⟩
  | .hbm, ⟨15, _⟩ => ⟨S1638400, .i32⟩
  | .hbm, ⟨16, _⟩ => ⟨S1638400, .i1⟩
  | .hbm, ⟨17, _⟩ => ⟨S_, .i32⟩
  | .hbm, ⟨18, _⟩ => ⟨S1638400, .i32⟩
  | .hbm, ⟨19, _⟩ => ⟨S1638400, .i32⟩
  | .hbm, ⟨20, _⟩ => ⟨S1638400, .i32⟩
  | .hbm, ⟨21, _⟩ => ⟨S1638400x1, .i32⟩
  | .hbm, ⟨22, _⟩ => ⟨S1638400x1, .i32⟩
  | .hbm, ⟨23, _⟩ => ⟨S1638400x2, .i32⟩
  | .hbm, ⟨24, _⟩ => ⟨S4096x4096, .f32⟩
  | .hbm, ⟨25, _⟩ => ⟨S4096x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1638400 : S_.BroadcastsInDim S1638400 (![] : Fin 0 → Fin S1638400.rank)
  bcast_S1638400_S1638400x1_0 : S1638400.BroadcastsInDim S1638400x1 (![0] : Fin 1 → Fin S1638400x1.rank)
  concatenates_S1638400x1_S1638400x1_S1638400x2_d1 : Shape.Concatenates [S1638400x1, S1638400x1] S1638400x2 1
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S4096x4096_S1638400x2_S1638400_n_01_01_1_wf : ScatterDims.WF S4096x4096 S1638400x2 S1638400 [] [0, 1] [0, 1] 1
  dot_S8192x4096_S4096x4096_S8192x4096_1_0_0_1_n_n_wf : DotDims.WF S8192x4096 S4096x4096 S8192x4096 [1] [0] [0] [1] [] []

variable [Facts₀]

def scatter_S4096x4096_S1638400x2_S1638400_n_01_01_1 : ScatterDims S4096x4096 S1638400x2 S1638400 where
  updateWindowDims := []
  insertedWindowDims := [0, 1]
  scatterDimsToOperandDims := [0, 1]
  indexVectorDim := 1
  wf := scatter_S4096x4096_S1638400x2_S1638400_n_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The dense layer both programs compute, as ONE function of the activations `x` [8192, 4096], the dense weight matrix
  `W` [4096, 4096] (row `s` holds output feature `s`) and the bias `b` [4096], on the extended reals:

      out[r, s] = (Σ_{k < 4096} x[r, k] · W[s, k]) + b[s].

  The weight matrix is whatever the scatter of the sparse triples produced; nothing below looks inside it.
-/
import Idealize.ShloMosaic.PureOps.Ideal
import Idealize.ShloMosaic.Lib.ValueIdx

noncomputable section

namespace Cert.DenseLayer

open Idealize.ShloMosaic Idealize.ShloMosaic.ValueIdx

/-- Row `r` of `x` against row `s` of `W`, plus entry `s` of the bias. -/
def out (x : FVec Ideal (⟨2, ![8192, 4096]⟩ : Shape) .f32) (W : FVec Ideal (⟨2, ![4096, 4096]⟩ : Shape) .f32)
    (b : FVec Ideal (⟨1, ![4096]⟩ : Shape) .f32) : FVec Ideal (⟨2, ![8192, 4096]⟩ : Shape) .f32 :=
  fun i => (∑ k : Fin 4096, x (ix2 (i 0) k) * W (ix2 (i 1) k)) + b (ix1 (i 1))

theorem out_apply (x : FVec Ideal (⟨2, ![8192, 4096]⟩ : Shape) .f32) (W : FVec Ideal (⟨2, ![4096, 4096]⟩ : Shape) .f32)
    (b : FVec Ideal (⟨1, ![4096]⟩ : Shape) .f32) (r : Fin 8192) (s : Fin 4096) :
    out x W b (ix2 r s) = (∑ k : Fin 4096, x (ix2 r k) * W (ix2 s k)) + b (ix1 s) := rfl

end Cert.DenseLayer

end
-- ==== Proof.RefIsDense.lean ====
/-
  The reference, read at an index: its last stage is the dense layer of `Spec.lean` applied to the activations, to the
  scattered weight matrix (the scatter stage, kept closed) and to the bias.

  The reference transposes the weight matrix and contracts `x`'s axis 1 with the transpose's axis 0, so entry `(r, s)` of
  the product is `Σ_k x[r, k] · Wᵀ[k, s] = Σ_k x[r, k] · W[s, k]`; the bias is laid out as a row `[1, 4096]` and repeated down
  the 8192 rows, so entry `(r, s)` of the addend is `b[s]`.
-/
import proofs.«158520_j89721866814284_1_alg».proof.Proof.Gen.ReferenceIdeal.Read
import proofs.«158520_j89721866814284_1_alg».proof.Proof.Spec

noncomputable section

namespace Cert.ReferenceIdeal.RefValue

open Cert.ReferenceIdeal Cert.ReferenceIdeal.Read Idealize.ShloMosaic Idealize.ShloMosaic.ValueIdx

/-- The product's left index at `k` is `(r, k)`. -/
theorem lidx_eq (i : S8192x4096.Idx) (k : Fin 4096) : lidx_main_v16 i k = ix2 (i 0) k :=
  funext fun a => Fin.ext (by match a with | ⟨0, _⟩ => rfl | ⟨1, _⟩ => rfl)

/-- The product's right index at `k`, carried through the transpose, is `(s, k)`. -/
theorem ridx_eq (i : S8192x4096.Idx) (k : Fin 4096) : idx_main_v15 (ridx_main_v16 i k) = ix2 (i 1) k :=
  funext fun a => Fin.ext (by match a with | ⟨0, _⟩ => rfl | ⟨1, _⟩ => rfl)

/-- The bias entry under `(r, s)`, through the two broadcasts, is `s`. -/
theorem bidx_eq (i : S8192x4096.Idx) : idx_main_v17 (idx_main_v18 i) = ix1 (i 1) :=
  funext fun a => Fin.ext (by match a with | ⟨0, _⟩ => rfl)

/-- The reference's result is the dense layer of its arguments and of the scattered weight matrix. -/
theorem result_eq (x0 : (⟨S8192x4096, .f32⟩ : BufTy).Contents (Elt Ideal)) (x1 : (⟨S1638400, .f32⟩ : BufTy).Contents (Elt Ideal))
    (x2 : (⟨S4096, .f32⟩ : BufTy).Contents (Elt Ideal)) (x3 x4 : (⟨S1638400, .i32⟩ : BufTy).Contents (Elt Ideal)) :
    val_main_v19 (F := Ideal) x0 x1 x2 x3 x4 = Cert.DenseLayer.out x0 (val_main_v14 (F := Ideal) x1 x3 x4) x2 := by
  funext i
  rw [val_main_v19_apply, val_main_v16_apply, val_main_v18_apply, val_main_v17_apply]
  simp only [val_main_v15_apply, lidx_eq, ridx_eq, bidx_eq, Ideal.addf_def]
  rfl

end Cert.ReferenceIdeal.RefValue

end
-- ==== Proof.Cases.lean ====
/-
  What one run of the body leaves behind, in each of its three control cases, as values.

  The body keeps a [1024, 1024] accumulator in scratch memory across the four points `k = 0, 1, 2, 3` that share an
  output block. With `x`, `w` the activation and weight blocks at the point and `step x w acc` the accumulation step
  (`acc` plus the block product):

    * first point (`k = 0`): the accumulator is reset to the zero block, read back, and left at `step x w 0`;
    * middle points (`k = 1, 2`): the accumulator, found at `acc`, is left at `step x w acc`;
    * last point (`k = 3`): the accumulator is left at `step x w acc` as well, then read back, and the output block is
      stored as that value plus the bias row.

  Each statement reads the stores the symbolic run of the body found back as one value: a store through the whole
  buffer leaves its payload, and a load of the whole buffer after such a store reads that payload.
-/
import proofs.«158520_j89721866814284_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem origin : (![0, 0] : Fin 2 → Nat) = fun _ => 0 := funext fun a => by fin_cases a <;> rfl

/-- First point of a run of four: the accumulator ends at one step over the zero block. -/
theorem acc_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x1024 .f32) (x2 : Vec F S1x1024 .f32) :
    sout0_A_0 c i a3 h3 a4 h4 a5 h5 a6 h6 a7 h7 hc0 hc1 x0 x1 x2 = k0_pay2 x0 x1 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- A middle point: the accumulator ends at one step over what it held. -/
theorem acc_middle (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 x1 : Vec F S1024x1024 .f32) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero origin]
  simp only [View.readAt_eq_ld, h3.read_unread, h4.read_unread, h7.read_unread, View.ld_unit_zero (S := S1024x1024) origin]

/-- The last point: the accumulator again ends at one step over what it held; -/
theorem acc_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .f32) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero origin]
  simp only [View.readAt_eq_ld, h3.read_unread, h4.read_unread, h7.read_unread, View.ld_unit_zero (S := S1024x1024) origin]

/-- and the output block is stored as that accumulator plus the bias row. -/
theorem out_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .f32) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero origin, View.readCov_unit_zero (S := S1024x1024) _ origin]
  simp only [View.readAt_eq_ld, h3.read_unread, h4.read_unread, h5.read_unread, h7.read_unread,
    View.ld_unit_zero (S := S1024x1024) origin, View.ld_unit_zero (S := S1x1024) origin]

end Cert.KernelIdeal.Cases

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.BodyAt.lean ====
/-
  The body's three stored values, read at an entry `(p, q)` of a [1024, 1024] block, on the extended reals.

  * the reset value is the zero block;
  * the accumulation step adds to the running block the product of the activation block's row `p` with the weight
    block's row `q` — both blocks are narrowed to bf16 first, which on the extended reals changes nothing, and the
    matrix product starts from a zero accumulator, so it is the plain sum over the 1024 shared columns;
  * the closing step adds entry `q` of the bias row, repeated down the block's rows.
-/
import proofs.«158520_j89721866814284_1_alg».proof.Proof.Gen.KernelIdeal.Skeleton
import proofs.«158520_j89721866814284_1_alg».proof.Proof.LibContractRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyAt

open Cert.KernelIdeal Cert.KernelIdeal.Gen Idealize.ShloMosaic Idealize.ShloMosaic.ValueIdx

/-- The reset stores zero everywhere. -/
theorem reset_apply (j : S1024x1024.Idx) : k0_pay1 (F := Ideal) j = 0 := by
  unfold k0_pay1
  simp only [shapeCast_self]
  exact Ideal.ofBits_zero_f32

/-- One accumulation step at `(p, q)`: what was there, plus row `p` of the activation block against row `q` of the
    weight block. -/
theorem step_apply (x0 x1 acc : Vec Ideal S1024x1024 .f32) (p q : Fin 1024) :
    k0_pay2 (F := Ideal) x0 x1 acc (ix2 p q) = acc (ix2 p q) + ∑ k : Fin 1024, x0 (ix2 p k) * x1 (ix2 q k) := by
  unfold k0_pay2
  simp only [shapeCast_self]
  refine (congrArg (fun z => acc (ix2 p q) + z)
    (ContractRows.matmul_zero_apply (M := 1024) (K := 1024) (N := 1024) none _ _ p q)).trans ?_
  rfl

/-- The closing step at `(p, q)`: the accumulated entry plus the bias row's entry `q`. -/
theorem close_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  simp only [shapeCast_self]
  exact congrArg (fun z => acc (ix2 p q) + z) (broadcastTo_1b_ab_apply b _ p q)

end Cert.KernelIdeal.BodyAt

end
-- ==== Proof.Accum.lean ====
/-
  The accumulator over a run of four points, on the extended reals.

  Points `4g, 4g+1, 4g+2, 4g+3` share one output block. Write `addend n (p, q)` for point `n`'s block product at `(p, q)`:
  row `p` of its activation block against row `q` of its weight block, a sum of 1024 products. The first point leaves
  `0 + addend (4g)` in the accumulator and each later point adds its own addend, so after point `t` the accumulator holds

      0 + Σ_{s ≤ t % 4} addend (4·(t/4) + s),

  and at the last point of the run the output block is stored as that sum (all four addends) plus the bias row.
-/
import proofs.«158520_j89721866814284_1_alg».proof.Proof.Gen.KernelIdeal.Value
import proofs.«158520_j89721866814284_1_alg».proof.Proof.Cases
import proofs.«158520_j89721866814284_1_alg».proof.Proof.BodyAt
import Idealize.ShloMosaic.Lib.Pipeline.Value
import Idealize.ShloMosaic.Lib.ValueIdx

noncomputable section

namespace Cert.KernelIdeal.Accum

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The activation, weight and bias blocks at a point, at their literal shapes. -/
abbrev xb (c : Dev nD) (t : Fin cfg0.N) : Vec Ideal S1024x1024 .f32 := iblk m c 0 t
abbrev wb (c : Dev nD) (t : Fin cfg0.N) : Vec Ideal S1024x1024 .f32 := iblk m c 1 t
abbrev bb (c : Dev nD) (t : Fin cfg0.N) : Vec Ideal S1x1024 .f32 := iblk m c 2 t

/-- Point `n`'s block product at an entry of the block (zero past the grid, where it is never used). -/
def addend (c : Dev nD) (n : ℕ) (j : S1024x1024.Idx) : EReal :=
  if h : n < cfg0.N then ∑ k : Fin 1024, xb m c ⟨n, h⟩ (ix2 (j 0) k) * wb m c ⟨n, h⟩ (ix2 (j 1) k) else 0

theorem addend_of_lt (c : Dev nD) (n : ℕ) (h : n < cfg0.N) (p q : Fin 1024) :
    addend m c n (ix2 p q) = ∑ k : Fin 1024, xb m c ⟨n, h⟩ (ix2 p k) * wb m c ⟨n, h⟩ (ix2 q k) := by
  unfold addend
  rw [dif_pos h]

/-- The first point of a run leaves `0 +` its addend, whatever the accumulator held. -/
theorem first_point (c : Dev nD) (n : ℕ) (hb : n < cfg0.N) (h0 : n % 4 = 0) (acc : Vec Ideal S1024x1024 .f32)
    (j : S1024x1024.Idx) : Value.scAt0_0 m c n hb acc j = 0 + addend m c n j := by
  obtain ⟨p, q, rfl⟩ : ∃ (p q : Fin 1024), j = ix2 p q := ⟨j 0, j 1, eq_ix2 j⟩
  have h1 : ¬n % 4 = 3 := by omega
  unfold Value.scAt0_0
  rw [dif_pos h0, dif_neg h1]
  refine (congrFun (Cases.acc_first (F := Ideal) c (grid0.coords ⟨n, hb⟩) (ms0_0 ⟨n, hb⟩) (hs0_0 ⟨n, hb⟩) (ms0_1 ⟨n, hb⟩)
    (hs0_1 ⟨n, hb⟩) (ms0_2 ⟨n, hb⟩) (hs0_2 ⟨n, hb⟩) (ms0_3 ⟨n, hb⟩) (hs0_3 ⟨n, hb⟩) scM0_0 (Memref.isWhole_whole _) _ _
    (xb m c ⟨n, hb⟩) (wb m c ⟨n, hb⟩) (bb m c ⟨n, hb⟩)) (ix2 p q)).trans ?_
  rw [BodyAt.step_apply, BodyAt.reset_apply, addend_of_lt m c n hb]

/-- Every other point adds its addend to what the accumulator held. -/
theorem later_point (c : Dev nD) (n : ℕ) (hb : n < cfg0.N) (h0 : ¬n % 4 = 0) (acc : Vec Ideal S1024x1024 .f32)
    (j : S1024x1024.Idx) : Value.scAt0_0 m c n hb acc j = acc j + addend m c n j := by
  obtain ⟨p, q, rfl⟩ : ∃ (p q : Fin 1024), j = ix2 p q := ⟨j 0, j 1, eq_ix2 j⟩
  unfold Value.scAt0_0
  rw [dif_neg h0]
  by_cases h1 : n % 4 = 3
  · rw [dif_pos h1]
    refine (congrFun (Cases.acc_last (F := Ideal) c (grid0.coords ⟨n, hb⟩) (ms0_0 ⟨n, hb⟩) (hs0_0 ⟨n, hb⟩) (ms0_1 ⟨n, hb⟩)
      (hs0_1 ⟨n, hb⟩) (ms0_2 ⟨n, hb⟩) (hs0_2 ⟨n, hb⟩) (ms0_3 ⟨n, hb⟩) (hs0_3 ⟨n, hb⟩) scM0_0 (Memref.isWhole_whole _) _ _
      (xb m c ⟨n, hb⟩) (wb m c ⟨n, hb⟩) (bb m c ⟨n, hb⟩) acc) (ix2 p q)).trans ?_
    rw [BodyAt.step_apply, addend_of_lt m c n hb]
  · rw [dif_neg h1]
    refine (congrFun (Cases.acc_middle (F := Ideal) c (grid0.coords ⟨n, hb⟩) (ms0_0 ⟨n, hb⟩) (hs0_0 ⟨n, hb⟩) (ms0_1 ⟨n, hb⟩)
      (hs0_1 ⟨n, hb⟩) (ms0_2 ⟨n, hb⟩) (hs0_2 ⟨n, hb⟩) (ms0_3 ⟨n, hb⟩) (hs0_3 ⟨n, hb⟩) scM0_0 (Memref.isWhole_whole _) _ _
      (xb m c ⟨n, hb⟩) (wb m c ⟨n, hb⟩) (bb m c ⟨n, hb⟩) acc) (ix2 p q)).trans ?_
    rw [BodyAt.step_apply, addend_of_lt m c n hb]

/-- The accumulator after point `t`: zero plus the addends of its run up to `t`. -/
theorem acc_after (c : Dev nD) (t : Fin cfg0.N) (j : S1024x1024.Idx) :
    (outsAt0 m c t.val t.isLt).2 j = 0 + ∑ s ∈ Finset.range (t.val % 4 + 1), addend m c (4 * (t.val / 4) + s) j := by
  rw [Value.soutsAt0_0_eq m c t]
  exact Pipeline.accAt_add_apply (fun n h => Value.scAt0_0 m c n h (VS0_0.read (Elt Ideal) VS0_0.junk)) (Value.scAt0_0 m c)
    (fun _ => (0 : EReal)) (addend m c) (4 * (t.val / 4)) 3
    (fun h i => first_point m c _ h (by omega) _ i)
    (fun n h acc i hlt hle => later_point m c n h (by omega) acc i)
    (t.val % 4) (by omega) _ j

/-- At the last point of a run the output block is the accumulator plus the bias row. -/
theorem out_is_acc_plus_bias (c : Dev nD) (t : Fin cfg0.N) (h3 : t.val % 4 = 3) :
    (outsAt0 m c t.val t.isLt).1 = k0_pay3 ((outsAt0 m c t.val t.isLt).2) (bb m c t) := by
  have h0 : ¬t.val % 4 = 0 := by omega
  rw [outsAt0_C m c t h0 h3]
  dsimp only
  exact (Cases.out_last (F := Ideal) c (grid0.coords t) (ms0_0 t) (hs0_0 t) (ms0_1 t) (hs0_1 t) (ms0_2 t) (hs0_2 t)
      (ms0_3 t) (hs0_3 t) scM0_0 (Memref.isWhole_whole _) _ _ (xb m c t) (wb m c t) (bb m c t) _).trans
    (congrArg (fun z => k0_pay3 z (bb m c t))
      (Cases.acc_last (F := Ideal) c (grid0.coords t) (ms0_0 t) (hs0_0 t) (ms0_1 t) (hs0_1 t) (ms0_2 t) (hs0_2 t)
        (ms0_3 t) (hs0_3 t) scM0_0 (Memref.isWhole_whole _) _ _ (xb m c t) (wb m c t) (bb m c t) _).symm)

/-- So at the last point of a run, entry `(p, q)` of the output block is zero plus the run's four addends, plus entry
    `q` of the bias row. -/
theorem out_at_last (c : Dev nD) (t : Fin cfg0.N) (h3 : t.val % 4 = 3) (p q : Fin 1024) :
    (outsAt0 m c t.val t.isLt).1 (ix2 p q)
      = (0 + ∑ s ∈ Finset.range 4, addend m c (4 * (t.val / 4) + s) (ix2 p q)) + bb m c t (ix2 (0 : Fin 1) q) := by
  rw [out_is_acc_plus_bias m c t h3, BodyAt.close_apply, acc_after m c t, h3]

end Cert.KernelIdeal.Accum

end
-- ==== Proof.Blocks.lean ====
/-
  Where each window's block sits. The grid is 8 × 4 × 4, point `t = 16·i + 4·j + k`: `i` picks 1024 rows of the
  activations and of the output, `j` picks 1024 output features (rows of the weight matrix, columns of the output,
  entries of the bias), `k` picks 1024 of the 4096 contracted columns. So at point `t`

    * the activation block is rows `1024·(t/16) + p`, columns `1024·(t%4) + k` of `x`;
    * the weight block is rows `1024·(t/4%4) + q`, columns `1024·(t%4) + k` of `W`;
    * the bias block is columns `1024·(t/4%4) + q` of the bias row;
    * the output block is rows `1024·(t/16) + p`, columns `1024·(t/4%4) + q`.

  Each read is stated for an arbitrary array first: which entry a block reads depends on the window alone, never on what
  the array holds (the weight matrix in particular stays closed).
-/
import proofs.«158520_j89721866814284_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The four index maps at every point of the grid, decided once. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Window 0's block at point `t` reads any [8192, 4096] array at row `1024·(t/16) + p`, column `1024·(t%4) + k`. -/
theorem x_read (c : Dev nD) (A : Buf (Elt F) ((c : Thread nD τ).loc main_arg0)) (t : Fin cfg0.N) (p k : Fin 1024)
    (r : Fin 8192) (s : Fin 4096) (hr : r.val = 1024 * (t.val / 16) + p.val) (hs : s.val = 1024 * (t.val % 4) + k.val) :
    (((cfg0.win 0).blk t).view.read (Elt F) A : Vec F S1024x1024 .f32) (ix2 p k) = A (ix2 r s) := by
  obtain ⟨e0, e1, -⟩ := idx_facts t
  rw [View.read_apply]
  refine congrArg A (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * k.val = s.val; rw [e1, hs]; omega

/-- Window 1's block at point `t` reads any [4096, 4096] array at row `1024·(t/4%4) + q`, column `1024·(t%4) + k`. -/
theorem w_read (c : Dev nD) (A : Buf (Elt F) ((c : Thread nD τ).loc main_v14)) (t : Fin cfg0.N) (q k : Fin 1024)
    (r s : Fin 4096) (hr : r.val = 1024 * (t.val / 4 % 4) + q.val) (hs : s.val = 1024 * (t.val % 4) + k.val) :
    (((cfg0.win 1).blk t).view.read (Elt F) A : Vec F S1024x1024 .f32) (ix2 q k) = A (ix2 r s) := by
  obtain ⟨-, -, e0, e1, -⟩ := idx_facts t
  rw [View.read_apply]
  refine congrArg A (funext fun a => Fin.ext ?_)
  match a with
  | ⟨0, _⟩ => show win0_1.index t (0 : Fin 2) * 1024 + 1 * q.val = r.val; rw [e0, hr]; omega
  | ⟨1, _⟩ => show win0_1.index t (1 : Fin 2) * 1024 + 1 * k.val = s.val; rw [e1, hs]; omega

/-- Window 2's block at point `t` reads any [1, 4096] array at column `1024·(t/4%4) + q`. -/
theorem b_read (c : Dev nD) (A : Buf (Elt F) ((c : Thread nD τ).loc main_v15)) (t : Fin cfg0.N) (q : Fin 1024)
    (s : Fin 4096) (hs : s.val = 1024 * (t.val / 4 % 4) + q.val) :
    (((cfg0.win 2).blk t).view.read (Elt F) A : Vec F S1x1024 .f32) (ix2 (0 : Fin 1) q) = A (ix2 (0 : Fin 1) s) := by
  obtain ⟨-, -, -, -, e0, e1, -⟩ := idx_facts t
  rw [View.read_apply]
  refine congrArg A (funext fun a => Fin.ext ?_)
  match a with
  | ⟨0, _⟩ => show win0_2.index t (0 : Fin 2) * 1 + 1 * 0 = 0; rw [e0]
  | ⟨1, _⟩ => show win0_2.index t (1 : Fin 2) * 1024 + 1 * q.val = s.val; rw [e1, hs]; omega

/-- The activation block at point `t`, entry `(p, k)`. -/
theorem x_block (c : Dev nD) (t : Fin cfg0.N) (p k : Fin 1024) (r : Fin 8192) (s : Fin 4096)
    (hr : r.val = 1024 * (t.val / 16) + p.val) (hs : s.val = 1024 * (t.val % 4) + k.val) :
    (iblk m c 0 t : Vec F S1024x1024 .f32) (ix2 p k) = V m c main_arg0 (ix2 r s) :=
  x_read c (V m c main_arg0) t p k r s hr hs

/-- The weight block at point `t`, entry `(q, k)`. -/
theorem w_block (c : Dev nD) (t : Fin cfg0.N) (q k : Fin 1024) (r s : Fin 4096)
    (hr : r.val = 1024 * (t.val / 4 % 4) + q.val) (hs : s.val = 1024 * (t.val % 4) + k.val) :
    (iblk m c 1 t : Vec F S1024x1024 .f32) (ix2 q k) = V m c main_v14 (ix2 r s) :=
  w_read c (V m c main_v14) t q k r s hr hs

/-- The bias block at point `t`, entry `(0, q)`. -/
theorem b_block (c : Dev nD) (t : Fin cfg0.N) (q : Fin 1024) (s : Fin 4096)
    (hs : s.val = 1024 * (t.val / 4 % 4) + q.val) :
    (iblk m c 2 t : Vec F S1x1024 .f32) (ix2 (0 : Fin 1) q) = V m c main_v15 (ix2 (0 : Fin 1) s) :=
  b_read c (V m c main_v15) t q s hs

end Cert.KernelIdeal.Blocks

end
-- ==== Proof.SplitSum.lean ====
/-
  A sum over `Fin (a * b)` split into `a` consecutive blocks of `b` terms, in any commutative additive monoid
  (used at the extended reals, where addition is associative and commutative and `0` is neutral, infinities included).
-/
import Mathlib.Algebra.BigOperators.Fin
import Mathlib.Logic.Equiv.Fin.Basic

namespace Cert.SplitSum

open Finset

/-- The sum of `f` over `Fin (a * b)` is the sum over the `a` blocks of the block sums: term `r` of block `i` is
    `f (r + b * i)`. -/
theorem sum_blocks {M : Type*} [AddCommMonoid M] (a b : ℕ) (f : Fin (a * b) → M) :
    ∑ k, f k = ∑ i : Fin a, ∑ r : Fin b, f (finProdFinEquiv (i, r)) := by
  rw [← Fintype.sum_prod_type', ← finProdFinEquiv.sum_comp]

/-- The same read from the blocks' side: if `g i` is the sum of block `i`, for each of the `a` blocks, then the `g i`
    add up to the whole sum. -/
theorem sum_range_blocks {M : Type*} [AddCommMonoid M] (a b : ℕ) (f : Fin (a * b) → M) (g : ℕ → M)
    (hg : ∀ i : Fin a, g i.val = ∑ r : Fin b, f (finProdFinEquiv (i, r))) :
    ∑ s ∈ Finset.range a, g s = ∑ k, f k := by
  rw [sum_blocks, Finset.sum_range]
  exact Finset.sum_congr rfl fun i _ => hg i

end Cert.SplitSum
-- ==== Proof.Whole.lean ====
/-
  The kernel's result array, whole.

  Only the last point of each run of four writes its output block back, and what it writes is, at entry `(p, q)`,
  zero plus the four block products plus the bias entry. The four block products cover the 4096 contracted columns in
  four consecutive stretches of 1024, so their sum is the full row-against-row sum: the written block is the block of

      result[r, s] = (Σ_{k < 4096} x[r, k] · W[s, k]) + b[s]

  at rows `1024·(t/16) + p`, columns `1024·(t/4%4) + q`. The 32 written blocks tile the [8192, 4096] array (the block
  over `(r, s)` is written at point `16·(r/1024) + 4·(s/1024) + 3`), so the array ends holding `result`.
  `x`, `W` and the bias row are the arrays as the region finds them; `W` is never opened.
-/
import proofs.«158520_j89721866814284_1_alg».proof.Proof.Gen.KernelIdeal.Value
import proofs.«158520_j89721866814284_1_alg».proof.Proof.Accum
import proofs.«158520_j89721866814284_1_alg».proof.Proof.Blocks
import proofs.«158520_j89721866814284_1_alg».proof.Proof.Spec
import proofs.«158520_j89721866814284_1_alg».proof.Proof.SplitSum
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The bias as a vector: the region finds it laid out as one row `[1, 4096]`. -/
def biasVec (c : Dev nD) : FVec Ideal (⟨1, ![4096]⟩ : Shape) .f32 := fun i => V m c main_v15 (ix2 (0 : Fin 1) (i 0))

/-- The activations and the weight matrix as the region finds them, at their literal shapes. -/
def acts (c : Dev nD) : FVec Ideal (⟨2, ![8192, 4096]⟩ : Shape) .f32 := V m c main_arg0
def wts (c : Dev nD) : FVec Ideal (⟨2, ![4096, 4096]⟩ : Shape) .f32 := V m c main_v14

/-- The dense layer of the arrays the region finds. -/
def result (c : Dev nD) : Buf (Elt Ideal) ((c : Thread nD τ).loc main_v16) :=
  Cert.DenseLayer.out (acts m c) (wts m c) (biasVec m c)

theorem result_apply (c : Dev nD) (r : Fin 8192) (s : Fin 4096) :
    result m c (ix2 r s) = (∑ k : Fin 4096, acts m c (ix2 r k) * wts m c (ix2 s k)) + biasVec m c (ix1 s) := by
  unfold result
  exact Cert.DenseLayer.out_apply _ _ _ r s

/-- The array row under row `p` of point `t`'s output block, and the array column under its column `q`. -/
def rowOf (t : Fin cfg0.N) (p : Fin 1024) : Fin 8192 :=
  ⟨1024 * (t.val / 16) + p.val, by have h : cfg0.N = 128 := N_0; have := t.isLt; have := p.isLt; omega⟩
def colOf (t : Fin cfg0.N) (q : Fin 1024) : Fin 4096 :=
  ⟨1024 * (t.val / 4 % 4) + q.val, by have := q.isLt; omega⟩

/-- At the last point of a run, entry `(p, q)` of the output block is `result` at the entry of the array under it: the four
    block products are the four stretches of the 4096-term sum. -/
theorem block_value (c : Dev nD) (t : Fin cfg0.N) (h3 : t.val % 4 = 3) (p q : Fin 1024) :
    (outsAt0 m c t.val t.isLt).1 (ix2 p q) = result m c (ix2 (rowOf t p) (colOf t q)) := by
  have hN : cfg0.N = 128 := N_0
  have ht : t.val < 128 := lt_of_lt_of_eq t.isLt hN
  rw [Accum.out_at_last m c t h3 p q, result_apply, zero_add]
  refine congrArg₂ (· + ·) ?_ ?_
  · refine Cert.SplitSum.sum_range_blocks 4 1024
      (fun k : Fin (4 * 1024) => acts m c (ix2 (rowOf t p) k) * wts m c (ix2 (colOf t q) k)) _ (fun i => ?_)
    have hi : i.val < 4 := i.isLt
    have hn : 4 * (t.val / 4) + i.val < cfg0.N := by omega
    rw [Accum.addend_of_lt m c _ hn p q]
    refine Finset.sum_congr rfl fun k _ => ?_
    have hk : (finProdFinEquiv (i, k) : Fin (4 * 1024)).val = k.val + 1024 * i.val := rfl
    exact congrArg₂ (· * ·)
      (Blocks.x_block m c ⟨_, hn⟩ p k (rowOf t p) (finProdFinEquiv (i, k))
        (by show 1024 * (t.val / 16) + p.val = 1024 * ((4 * (t.val / 4) + i.val) / 16) + p.val; omega)
        (by rw [hk]; show k.val + 1024 * i.val = 1024 * ((4 * (t.val / 4) + i.val) % 4) + k.val; omega))
      (Blocks.w_block m c ⟨_, hn⟩ q k (colOf t q) (finProdFinEquiv (i, k))
        (by show 1024 * (t.val / 4 % 4) + q.val = 1024 * ((4 * (t.val / 4) + i.val) / 4 % 4) + q.val; omega)
        (by rw [hk]; show k.val + 1024 * i.val = 1024 * ((4 * (t.val / 4) + i.val) % 4) + k.val; omega))
  · exact Blocks.b_block m c t q (colOf t q) rfl

/-- The same for the whole block, as a function of the block's index. -/
theorem block_fn (c : Dev nD) (t : Fin cfg0.N) (h3 : t.val % 4 = 3) :
    ((outsAt0 m c t.val t.isLt).1 : Vec Ideal S1024x1024 .f32)
      = fun y : S1024x1024.Idx => result m c (ix2 (rowOf t (y 0)) (colOf t (y 1))) := by
  funext y
  obtain ⟨p, q, rfl⟩ : ∃ (p q : Fin 1024), y = ix2 p q := ⟨y 0, y 1, eq_ix2 y⟩
  exact block_value m c t h3 p q

/-- WHAT A WRITING POINT WRITES BACK is its block of `result`. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  obtain ⟨-, -, -, -, -, -, e0, e1⟩ := Blocks.idx_facts t
  rw [Value.flushed3]
  funext y
  rw [View.read_apply]
  refine (congrFun (block_fn m c t h3) y).trans ?_
  refine congrArg (result m c) (funext fun a => Fin.ext ?_)
  match a with
  | ⟨0, _⟩ => show 1024 * (t.val / 16) + (y 0).val = win0_3.index t (0 : Fin 2) * 1024 + 1 * (y 0).val; rw [e0]; omega
  | ⟨1, _⟩ => show 1024 * (t.val / 4 % 4) + (y 1).val = win0_3.index t (1 : Fin 2) * 1024 + 1 * (y 1).val; rw [e1]; omega

/-- An index of the array is in point `t`'s output block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v16).slice (win0_3.rect t)).set ↔ _
  rw [View.set_slice_whole, Rect.mem_set_unit]
  exact Iff.rfl

/-- Every entry of the array is in the block some writing point writes: the one over it, at the last of its four points. -/
theorem covered (i : S8192x4096.Idx) :
    ∃ t : Fin cfg0.N, (cfg0.win 3).flush t = true ∧ i ∈ ((cfg0.win 3).blk t).view.set := by
  have hN : cfg0.N = 128 := N_0
  have h0 : (i 0).val < 8192 := (i 0).isLt
  have h1 : (i 1).val < 4096 := (i 1).isLt
  have hlt : 16 * ((i 0).val / 1024) + 4 * ((i 1).val / 1024) + 3 < cfg0.N := by omega
  obtain ⟨-, -, -, -, -, -, e0, e1⟩ := Blocks.idx_facts ⟨_, hlt⟩
  refine ⟨⟨_, hlt⟩, (flush0_3 _).mpr (by show (16 * ((i 0).val / 1024) + 4 * ((i 1).val / 1024) + 3) % 4 = 3; omega), ?_⟩
  rw [mem_blk]
  intro a
  match a with
  | ⟨0, _⟩ =>
    show win0_3.index ⟨_, hlt⟩ (0 : Fin 2) * 1024 ≤ (i 0).val ∧ (i 0).val < win0_3.index ⟨_, hlt⟩ (0 : Fin 2) * 1024 + 1024
    rw [e0]
    show (16 * ((i 0).val / 1024) + 4 * ((i 1).val / 1024) + 3) / 16 * 1024 ≤ (i 0).val
      ∧ (i 0).val < (16 * ((i 0).val / 1024) + 4 * ((i 1).val / 1024) + 3) / 16 * 1024 + 1024
    omega
  | ⟨1, _⟩ =>
    show win0_3.index ⟨_, hlt⟩ (1 : Fin 2) * 1024 ≤ (i 1).val ∧ (i 1).val < win0_3.index ⟨_, hlt⟩ (1 : Fin 2) * 1024 + 1024
    rw [e1]
    show (16 * ((i 0).val / 1024) + 4 * ((i 1).val / 1024) + 3) / 4 % 4 * 1024 ≤ (i 1).val
      ∧ (i 1).val < (16 * ((i 0).val / 1024) + 4 * ((i 1).val / 1024) + 3) / 4 % 4 * 1024 + 1024
    omega

/-- THE ARRAY after the run is `result`. -/
theorem final (c : Dev nD) : (dats m 0 c).arrAt 3 cfg0.N = result m c :=
  (dats m 0 c).arrAt_eq_of_cover 3 (result m c) (flushed_eq m c) covered

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.Entry.lean ====
/-
  The arrays the kernel's region finds, in terms of the program's arguments.

  Before the region the kernel's program runs the same scatter as the reference — the zero matrix, the two index
  vectors wrapped into range and paired, the sparse weights written at those positions — and reshapes the bias to a row.
  So the weight matrix the region finds IS the reference's scatter stage of the same three arguments (one term on both
  sides, never opened), and the bias row read at column `s` is the bias argument at `s`. The activations are untouched.
  With these, the kernel's result array is the dense layer of the arguments.
-/
import proofs.«158520_j89721866814284_1_alg».proof.Proof.Gen.ReferenceIdeal.Read
import proofs.«158520_j89721866814284_1_alg».proof.Proof.Whole
import Idealize.ShloMosaic.Lib.StableHlo.Run
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 4000000 in
/-- The weight matrix the region finds is the scatter of the three sparse arguments, as the reference states it. -/
theorem weights_eq (c : Dev nD) :
    (V m c main_v14 : S4096x4096.Idx → EReal)
      = Cert.ReferenceIdeal.Read.val_main_v14 (F := Ideal) (m ((c : Thread nD τ).loc main_arg1))
          (m ((c : Thread nD τ).loc main_arg3)) (m ((c : Thread nD τ).loc main_arg4)) := by
  dsimp only [V, hostOps0]
  after_results_simp
  rfl

/-- The bias row the region finds is the bias argument reshaped to `[1, 4096]`. -/
theorem bias_row_eq (c : Dev nD) :
    (V m c main_v15 : S1x4096.Idx → EReal) = shapeCast S1x4096 (m ((c : Thread nD τ).loc main_arg2)) shapeCasts_S4096_S1x4096 := by
  dsimp only [V, hostOps0]
  after_results
  rfl

/-- Read back as a vector, it is the bias argument. -/
theorem biasVec_eq (c : Dev nD) : Whole.biasVec m c = m ((c : Thread nD τ).loc main_arg2) := by
  funext i
  show V m c main_v15 (ix2 (0 : Fin 1) (i 0)) = m ((c : Thread nD τ).loc main_arg2) i
  rw [bias_row_eq m c]
  exact (shapeCast_a_1a_apply (m ((c : Thread nD τ).loc main_arg2)) shapeCasts_S4096_S1x4096 (0 : Fin 1) (i 0)).trans
    (congrArg (m ((c : Thread nD τ).loc main_arg2)) (eq_ix1 i).symm)

/-- The kernel's result array is the dense layer of the activations, the scattered weight matrix and the bias. -/
theorem result_eq (c : Dev nD) :
    Whole.result m c
      = Cert.DenseLayer.out (m ((c : Thread nD τ).loc main_arg0))
          (Cert.ReferenceIdeal.Read.val_main_v14 (F := Ideal) (m ((c : Thread nD τ).loc main_arg1))
            (m ((c : Thread nD τ).loc main_arg3)) (m ((c : Thread nD τ).loc main_arg4)))
          (m ((c : Thread nD τ).loc main_arg2)) := by
  unfold Whole.result Whole.acts Whole.wts
  rw [V_main_arg0 m c, weights_eq m c, biasVec_eq m c]

end Cert.KernelIdeal.Entry

end
-- ==== Proof.lean ====
/- A sparse-weight linear layer: `y = x · Wᵀ + b` for activations `x` [8192, 4096], bias `b` [4096] and a weight
   matrix `W` [4096, 4096] obtained by scattering 1,638,400 values into a zero matrix at given (row, column) pairs.

   Both programs build `W` by the same scatter, and the claim never looks inside it. The reference then transposes
   `W`, takes one matrix product over all 4096 columns and adds the bias. The kernel walks an 8 × 4 × 4 grid of
   1024-blocks: for each output block it accumulates, over four grid points, the products of the matching
   [1024, 1024] blocks of `x` and `W` (rows against rows) into a scratch accumulator reset at the first of the four, and
   at the last adds the bias row and writes the block out. On the extended reals the narrowing of the blocks to bf16 is
   the identity, each block product is a plain sum of 1024 products, and the four partial sums add up to the full
   4096-term sum because addition there is associative and commutative with neutral `0` — no finiteness is needed, so
   the precondition is never opened. Entry `(r, s)` of both results is `(Σ_k x[r, k] · W[s, k]) + b[s]`.

   Modules: Spec (that function), RefIsDense (the reference is it), SplitSum (a sum cut into consecutive blocks),
   LibContractRows (a rows-against-rows product read at an index), BodyAt (the body's three stored values at an index),
   Cases (what each control case of the body leaves), Accum (the accumulator over a run of four points), Blocks
   (where each window's block sits), Whole (the kernel's result array), Entry (the arrays the region finds, from the
   arguments). The frames are the generated ones; the kernel's idealization rewrote nothing. -/
import proofs.«158520_j89721866814284_1_alg».proof.Defs
import proofs.«158520_j89721866814284_1_alg».proof.Proof.Gen.Kernel
import proofs.«158520_j89721866814284_1_alg».proof.Proof.Gen.Kernel.Skeleton
import proofs.«158520_j89721866814284_1_alg».proof.Proof.Gen.Kernel.Launch
import proofs.«158520_j89721866814284_1_alg».proof.Proof.Gen.Kernel.Points
import proofs.«158520_j89721866814284_1_alg».proof.Proof.Gen.Kernel.Frame
import proofs.«158520_j89721866814284_1_alg».proof.Proof.Gen.KernelIdeal
import proofs.«158520_j89721866814284_1_alg».proof.Proof.Gen.KernelIdeal.Skeleton
import proofs.«158520_j89721866814284_1_alg».proof.Proof.Gen.KernelIdeal.Launch
import proofs.«158520_j89721866814284_1_alg».proof.Proof.Gen.KernelIdeal.Points
import proofs.«158520_j89721866814284_1_alg».proof.Proof.Gen.KernelIdeal.Frame
import proofs.«158520_j89721866814284_1_alg».proof.Proof.Gen.ReferenceIdeal
import proofs.«158520_j89721866814284_1_alg».proof.Proof.Gen.KernelIdeal.Value
import proofs.«158520_j89721866814284_1_alg».proof.Proof.Gen.ReferenceIdeal.Run
import proofs.«158520_j89721866814284_1_alg».proof.Proof.Gen.ReferenceIdeal.Read
import proofs.«158520_j89721866814284_1_alg».proof.Proof.Gen.Pre_finite_inputs
import proofs.«158520_j89721866814284_1_alg».proof.Proof.RefIsDense
import proofs.«158520_j89721866814284_1_alg».proof.Proof.Whole
import proofs.«158520_j89721866814284_1_alg».proof.Proof.Entry
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From arguments that agree, the kernel's result array and the reference's are the same dense layer of the same
    activations, the same scattered weight matrix and the same bias. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Whole.result m c
  rw [Cert.ReferenceIdeal.Read.val_main_v19_eq, Cert.ReferenceIdeal.RefValue.result_eq,
    Cert.KernelIdeal.Entry.result_eq m c, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
